-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S10000x10000 : Shape := ⟨2, ![10000, 10000]⟩
abbrev S128x128 : Shape := ⟨2, ![128, 128]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x10000x128 .f32) (main_arg1 : FVec F S10000x10000 .f32) (main_arg2 : FVec F S128x128 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4x10000x128 : Shape := ⟨3, ![4, 10000, 128]⟩
abbrev S10000x10000 : Shape := ⟨2, ![10000, 10000]⟩
abbrev S128x128 : Shape := ⟨2, ![128, 128]⟩
abbrev S10000x512 : Shape := ⟨2, ![10000, 512]⟩
abbrev S1x2000x128 : Shape := ⟨3, ![1, 2000, 128]⟩
abbrev S2000x128 : Shape := ⟨2, ![2000, 128]⟩
abbrev S400x10000 : Shape := ⟨2, ![400, 10000]⟩
abbrev S4x400x128 : Shape := ⟨3, ![4, 400, 128]⟩
abbrev S400x512 : Shape := ⟨2, ![400, 512]⟩
abbrev S400x128 : Shape := ⟨2, ![400, 128]⟩
abbrev S1x400x128 : Shape := ⟨3, ![1, 400, 128]⟩

abbrev nBuf : Space → Nat
  | .hbm => 5
  | .vmem => 10
  | .smem => 0
  | _ => 0

abbrev bufTy : (tb : Table) → Fin (tcTables nBuf tb) → BufTy
  | .hbm, ⟨0, _⟩ => ⟨S4x10000x128, .f32⟩
  | .hbm, ⟨1, _⟩ => ⟨S10000x10000, .f32⟩
  | .hbm, ⟨2, _⟩ => ⟨S128x128, .f32⟩
  | .hbm, ⟨3, _⟩ => ⟨S10000x512, .bf16⟩
  | .hbm, ⟨4, _⟩ => ⟨S4x10000x128, .f32⟩
  | .local _ .vmem, ⟨0, _⟩ => ⟨S1x2000x128, .f32⟩
  | .local _ .vmem, ⟨1, _⟩ => ⟨S1x2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S4x400x128, .f32⟩
  | .local _ .vmem, ⟨9, _⟩ => ⟨S4x400x128, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  slices_S400x512_o0_0_S400x128 : S400x512.Slices ![0, 0] S400x128
  inb_S4x400x128_S1x400x128_0_0_0 : ∀ a, (![0, 0, 0] : Fin 3 → Nat) a + S1x400x128.size a ≤ S4x400x128.size a
  h_S1x400x128 : 0 < S1x400x128.numel
  shapeCasts_S1x400x128_S400x128 : S1x400x128.ShapeCasts S400x128
  shapeCasts_S400x128_S1x400x128 : S400x128.ShapeCasts S1x400x128
  slices_S400x512_o0_128_S400x128 : S400x512.Slices ![0, 128] S400x128
  inb_S4x400x128_S1x400x128_1_0_0 : ∀ a, (![1, 0, 0] : Fin 3 → Nat) a + S1x400x128.size a ≤ S4x400x128.size a
  slices_S400x512_o0_256_S400x128 : S400x512.Slices ![0, 256] S400x128
  inb_S4x400x128_S1x400x128_2_0_0 : ∀ a, (![2, 0, 0] : Fin 3 → Nat) a + S1x400x128.size a ≤ S4x400x128.size a
  slices_S400x512_o0_384_S400x128 : S400x512.Slices ![0, 384] S400x128
  inb_S4x400x128_S1x400x128_3_0_0 : ∀ a, (![3, 0, 0] : Fin 3 → Nat) a + S1x400x128.size a ≤ S4x400x128.size a
  dot_S2000x128_S128x128_S2000x128_1_0_0_1_n_n_wf : DotDims.WF S2000x128 S128x128 S2000x128 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S4x10000x128.size a
  hwx0_0 : ∀ i : grid0.Coords, EltTy.bits .f32 = 32 ∨ (Rect.block (s := S4x10000x128) S1x2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x512.size a
  hwx0_2 : ∀ i : grid0.Coords, EltTy.bits .bf16 = 32 ∨ (Rect.block (s := S10000x512) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x400x128.size a ≤ S4x10000x128.size a
  hwx1_2 : ∀ i : grid1.Coords, EltTy.bits .f32 = 32 ∨ (Rect.block (s := S4x10000x128) S4x400x128.size (cc1_transform_2 i) (hinb1_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg0) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x10000x128 : Shape := ⟨3, ![4, 10000, 128]⟩
abbrev S10000x10000 : Shape := ⟨2, ![10000, 10000]⟩
abbrev S128x128 : Shape := ⟨2, ![128, 128]⟩
abbrev S1x10000x128 : Shape := ⟨3, ![1, 10000, 128]⟩
abbrev S10000x128 : Shape := ⟨2, ![10000, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S10000x10000, .f32⟩
  | .hbm, ⟨2, _⟩ => ⟨S128x128, .f32⟩
  | .hbm, ⟨3, _⟩ => ⟨S1x10000x128, .f32⟩
  | .hbm, ⟨4, _⟩ => ⟨S10000x128, .f32⟩
  | .hbm, ⟨5, _⟩ => ⟨S1x10000x128, .f32⟩
  | .hbm, ⟨6, _⟩ => ⟨S10000x128, .f32⟩
  | .hbm, ⟨7, _⟩ => ⟨S1x10000x128, .f32⟩
  | .hbm, ⟨8, _⟩ => ⟨S10000x128, .f32⟩
  | .hbm, ⟨9, _⟩ => ⟨S1x10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x10000x128, .f32⟩
  | .hbm, ⟨16, _⟩ => ⟨S1x10000x128, .f32⟩
  | .hbm, ⟨17, _⟩ => ⟨S1x10000x128, .f32⟩
  | .hbm, ⟨18, _⟩ => ⟨S1x10000x128, .f32⟩
  | .hbm, ⟨19, _⟩ => ⟨S4x10000x128, .f32⟩
  | .hbm, ⟨20, _⟩ => ⟨S1x10000x128, .f32⟩
  | .hbm, ⟨21, _⟩ => ⟨S10000x128, .f32⟩
  | .hbm, ⟨22, _⟩ => ⟨S1x10000x128, .f32⟩
  | .hbm, ⟨23, _⟩ => ⟨S10000x128, .f32⟩
  | .hbm, ⟨24, _⟩ => ⟨S1x10000x128, .f32⟩
  | .hbm, ⟨25, _⟩ => ⟨S10000x128, .f32⟩
  | .hbm, ⟨26, _⟩ => ⟨S1x10000x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x10000x128, .f32⟩
  | .hbm, ⟨33, _⟩ => ⟨S1x10000x128, .f32⟩
  | .hbm, ⟨34, _⟩ => ⟨S1x10000x128, .f32⟩
  | .hbm, ⟨35, _⟩ => ⟨S1x10000x128, .f32⟩
  | .hbm, ⟨36, _⟩ => ⟨S4x10000x128, .f32⟩
  | .hbm, ⟨37, _⟩ => ⟨S_, .f32⟩
  | .hbm, ⟨38, _⟩ => ⟨S4x10000x128, .f32⟩
  | .hbm, ⟨39, _⟩ => ⟨S4x10000x128, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_call0_cst : Ref sig .tc := ⟨.hbm, 37, rfl⟩
abbrev main_call0_v0 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  slices_S4x10000x128_S1x10000x128_0_0_0 : S4x10000x128.Slices ![0, 0, 0] S1x10000x128
  shapeCasts_S1x10000x128_S10000x128 : S1x10000x128.ShapeCasts S10000x128
  slices_S4x10000x128_S1x10000x128_1_0_0 : S4x10000x128.Slices ![1, 0, 0] S1x10000x128
  slices_S4x10000x128_S1x10000x128_2_0_0 : S4x10000x128.Slices ![2, 0, 0] S1x10000x128
  slices_S4x10000x128_S1x10000x128_3_0_0 : S4x10000x128.Slices ![3, 0, 0] S1x10000x128
  bcast_S10000x128_S1x10000x128_1_2 : S10000x128.BroadcastsInDim S1x10000x128 (![1, 2] : Fin 2 → Fin S1x10000x128.rank)
  concatenates_S1x10000x128_S1x10000x128_S1x10000x128_S1x10000x128_S4x10000x128_d0 : Shape.Concatenates [S1x10000x128, S1x10000x128, S1x10000x128, S1x10000x128] S4x10000x128 0
  bcast_S_S4x10000x128 : S_.BroadcastsInDim S4x10000x128 (![] : Fin 0 → Fin S4x10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result array named.

  The program is two kernel regions in a row: the first writes the wide support array, the second reads it (and the
  adjacency) and writes the result. Along the run the buffer contents at the boundaries are a fold: the launch memory,
  then the first region's arrays at what its write-backs leave, then the second region's. So at the end the result
  buffer holds what the second region's write-backs leave of its output window — the array the value lemmas read — and
  the three argument buffers hold what they were launched with.
-/
import proofs.«118438_g70677981823578_cont_9to1_m_879_4_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary: what the second region's write-backs leave of its output window. -/
theorem result_at_end (c : Dev nD) :
    W2 m ρ c (Proc.devRef .tc main_v1) = (dat1 (V1 m ρ) c).arrAt 2 cfg1.N :=
  W2_arr m ρ c 2

set_option backward.isDefEq.respectTransparency.types false in
/-- Every weakly fair execution of the program terminates without a fault, the result buffer at the second region's
    final output array and the arguments as launched: the two regions run as segments from the launch memory, and the
    last boundary's contents are read against the final state. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_at_end m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-! ## What each region finds in the buffers it reads -/

/-- The first region finds the features and the weight as launched. -/
theorem V0_arg0 (c : Dev nD) : V0 m ρ c main_arg0 = m ((c.tc : Thread nD τ).loc main_arg0) := rfl
theorem V0_arg2 (c : Dev nD) : V0 m ρ c main_arg2 = m ((c.tc : Thread nD τ).loc main_arg2) := rfl

/-- The second region finds the adjacency as launched (the first region does not touch it) -/
theorem V1_arg1 (c : Dev nD) : V1 m ρ c main_arg1 = m ((c.tc : Thread nD τ).loc main_arg1) :=
  W1_of_ne m ρ c main_arg1 (by decide)

/-- and the support at what the first region's write-backs leave of its output window. -/
theorem V1_support (c : Dev nD) : V1 m ρ c main_v0 = (dat0 (V0 m ρ) c).arrAt 2 cfg0.N :=
  W1_arr m ρ c 2

end Cert.KernelIdeal.Hand

end
-- ==== Proof.Spec.lean ====
/-
  The graph-convolution layer as one function of its three arrays, index by index, on the extended reals.

  For K = 4 feature slices x[k] (10000 nodes × 128 features), a dense 10000 × 10000 adjacency A and a 128 × 128
  weight W, the layer is

      out[k, n, d] = max (Σ_m A[n, m] · (Σ_j x[k, m, j] · W[j, d])) 0.

  The inner sum is the "support" x[k] · W. It can be laid out slice by slice ([4, 10000, 128]) or with the four
  slices side by side ([10000, 512], slice k in columns 128 k … 128 k + 127); contracting the adjacency against the
  wide layout and cutting the result back into four column bands gives the same numbers, because column
  128 k + d of the wide layout IS entry d of slice k (`spmm_support`). No law of arithmetic is involved: both
  arrangements add the same products in the same grouping.
-/
import Idealize.ShloMosaic.Lib.ValueIdx

noncomputable section

namespace Cert.Gcn

open Idealize.ShloMosaic Idealize.ShloMosaic.ValueIdx
open scoped BigOperators

/-- The features, the adjacency, the weight, the wide support and the result, as index types. -/
abbrev SX : Shape := ⟨3, ![4, 10000, 128]⟩
abbrev SA : Shape := ⟨2, ![10000, 10000]⟩
abbrev SW : Shape := ⟨2, ![128, 128]⟩
abbrev SS : Shape := ⟨2, ![10000, 512]⟩

/-- Entry (n, d) of x[k] · W. -/
def xw (x : SX.Idx → EReal) (w : SW.Idx → EReal) (k : Fin 4) (n : Fin 10000) (d : Fin 128) : EReal :=
  ∑ j : Fin 128, x (ix3 k n j) * w (ix2 j d)

/-- The support with the four slices side by side: column c holds entry c mod 128 of slice c / 128. -/
def supportAt (x : SX.Idx → EReal) (w : SW.Idx → EReal) (n : Fin 10000) (c : Fin 512) : EReal :=
  xw x w ⟨c.val / 128, by omega⟩ n ⟨c.val % 128, Nat.mod_lt _ (by decide)⟩

def support (x : SX.Idx → EReal) (w : SW.Idx → EReal) : SS.Idx → EReal := fun i => supportAt x w (i 0) (i 1)

theorem support_ix2 (x : SX.Idx → EReal) (w : SW.Idx → EReal) (n : Fin 10000) (c : Fin 512) :
    support x w (ix2 n c) = supportAt x w n c := rfl

/-- The adjacency contracted against a wide support, cut into the band of slice k, rectified. -/
def spmmAt (a : SA.Idx → EReal) (s : SS.Idx → EReal) (k : Fin 4) (n : Fin 10000) (d : Fin 128) : EReal :=
  max (∑ m : Fin 10000, a (ix2 n m) * s (ix2 m ⟨k.val * 128 + d.val, by omega⟩)) 0

def spmm (a : SA.Idx → EReal) (s : SS.Idx → EReal) : SX.Idx → EReal := fun i => spmmAt a s (i 0) (i 1) (i 2)

theorem spmm_ix3 (a : SA.Idx → EReal) (s : SS.Idx → EReal) (k : Fin 4) (n : Fin 10000) (d : Fin 128) :
    spmm a s (ix3 k n d) = spmmAt a s k n d := rfl

/-- The layer at (k, n, d). -/
def gcnAt (x : SX.Idx → EReal) (a : SA.Idx → EReal) (w : SW.Idx → EReal) (k : Fin 4) (n : Fin 10000) (d : Fin 128) : EReal :=
  max (∑ m : Fin 10000, a (ix2 n m) * xw x w k m d) 0

/-- The layer. -/
def gcn (x : SX.Idx → EReal) (a : SA.Idx → EReal) (w : SW.Idx → EReal) : SX.Idx → EReal :=
  fun i => gcnAt x a w (i 0) (i 1) (i 2)

theorem gcn_ix3 (x : SX.Idx → EReal) (a : SA.Idx → EReal) (w : SW.Idx → EReal) (k : Fin 4) (n : Fin 10000) (d : Fin 128) :
    gcn x a w (ix3 k n d) = gcnAt x a w k n d := rfl

/-- Column 128 k + d of the wide support is entry d of slice k. -/
theorem supportAt_band (x : SX.Idx → EReal) (w : SW.Idx → EReal) (k : Fin 4) (n : Fin 10000) (d : Fin 128) :
    supportAt x w n ⟨k.val * 128 + d.val, by omega⟩ = xw x w k n d := by
  unfold supportAt
  have hk : (⟨(k.val * 128 + d.val) / 128, by omega⟩ : Fin 4) = k := Fin.ext (by show (k.val * 128 + d.val) / 128 = k.val; omega)
  have hd : (⟨(k.val * 128 + d.val) % 128, Nat.mod_lt _ (by decide)⟩ : Fin 128) = d := Fin.ext (by show (k.val * 128 + d.val) % 128 = d.val; omega)
  rw [hk, hd]

/-- Contracting the adjacency against the wide support and cutting the bands apart is the layer. -/
theorem spmm_support (x : SX.Idx → EReal) (a : SA.Idx → EReal) (w : SW.Idx → EReal) :
    spmm a (support x w) = gcn x a w := by
  funext i
  obtain ⟨k, n, d, rfl⟩ : ∃ (k : Fin 4) (n : Fin 10000) (d : Fin 128), i = ix3 k n d := ⟨i 0, i 1, i 2, eq_ix3 i⟩
  rw [spmm_ix3, gcn_ix3]
  unfold spmmAt gcnAt
  refine congrArg (fun s => max s 0) (Finset.sum_congr rfl fun m _ => ?_)
  rw [support_ix2, supportAt_band]

end Cert.Gcn

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.Region0.lean ====
/-
  The first region's output array: the support with the four slices side by side.

  Grid point (k, i) of the first region reads rows 2000 i … 2000 i + 1999 of slice k of the features and the whole
  weight, multiplies them, and writes the product into rows 2000 i … of the column band 128 k … 128 k + 127 of the
  wide array. So the block a point writes back is that block of `Cert.Gcn.support`; the twenty blocks tile the
  10000 × 512 array, so after the region the array IS `Cert.Gcn.support` of the features and the weight as the
  region found them.
-/
import proofs.«118438_g70677981823578_cont_9to1_m_879_4_alg».proof.Proof.Gen.KernelIdeal.Frame
import proofs.«118438_g70677981823578_cont_9to1_m_879_4_alg».proof.Proof.Spec
import proofs.«118438_g70677981823578_cont_9to1_m_879_4_alg».proof.Proof.LibMatmul2d
import Idealize.ShloMosaic.Lib.Pipeline.Value
import Idealize.ShloMosaic.Lib.ValueLayout

noncomputable section

namespace Cert.KernelIdeal.Support

open Cert.KernelIdeal Cert.KernelIdeal.Gen Cert.Gcn
open Idealize.ShloMosaic Idealize.ShloMosaic.TcCoe Idealize.SL.Sem Idealize.ShloMosaic.ValueIdx
open Idealize.ShloMosaic.Pipeline (Dat)
open scoped BigOperators

/-! ## The body's product at an index -/

/-- The product of a [1, 2000, 128] block (read as 2000 × 128) with the 128 × 128 weight, at (r, d). -/
theorem product_apply (x0 : FVec Ideal S1x2000x128 .f32) (x1 : FVec Ideal S128x128 .f32) (r : Fin 2000) (d : Fin 128) :
    (k0_pay1 (F := Ideal) x0 x1 (ix2 r d) : EReal) = ∑ j : Fin 128, x0 (ix3 (0 : Fin 1) r j) * x1 (ix2 j d) := by
  unfold k0_pay1
  show FloatOps.matmul (DotDims.plain 2000 128 128) none (shapeCast S2000x128 x0 shapeCasts_S1x2000x128_S2000x128) x1
    (constant S2000x128 .f32 0x00000000#32) (ix2 r d) = _
  refine (Cert.LibMatmul2d.matmul_plain_apply (M := 2000) (K := 128) (N := 128) (φ₁ := .f32) (φ₂ := .f32)
    (shapeCast S2000x128 x0 shapeCasts_S1x2000x128_S2000x128) x1 r d).trans ?_
  exact Finset.sum_congr rfl fun j _ =>
    congrArg (· * x1 (ix2 j d)) (shapeCast_1ab_ab_apply x0 shapeCasts_S1x2000x128_S2000x128 r j)

/-- A point's product is its block of the wide support: if the feature block holds rows 2000 i … of slice k and the
    weight block holds the weight, the product at (r, d) is the support at (2000 i + r, 128 k + d). -/
theorem product_is_support (x0 : FVec Ideal S1x2000x128 .f32) (x1 : FVec Ideal S128x128 .f32)
    (X : SX.Idx → EReal) (Wt : SW.Idx → EReal) (k : Fin 4) (i : Fin 5)
    (h0 : ∀ (r : Fin 2000) (j : Fin 128), x0 (ix3 (0 : Fin 1) r j) = X (ix3 k ⟨i.val * 2000 + r.val, by omega⟩ j))
    (h1 : ∀ (j d : Fin 128), x1 (ix2 j d) = Wt (ix2 j d))
    (y : S2000x128.Idx) (z : SS.Idx) (hz0 : (z 0).val = i.val * 2000 + (y 0).val) (hz1 : (z 1).val = k.val * 128 + (y 1).val) :
    (k0_pay1 (F := Ideal) x0 x1 y : EReal) = support X Wt z := by
  obtain ⟨r, d, rfl⟩ : ∃ (r : Fin 2000) (d : Fin 128), y = ix2 r d := ⟨y 0, y 1, eq_ix2 y⟩
  obtain ⟨n, c, rfl⟩ : ∃ (n : Fin 10000) (c : Fin 512), z = ix2 n c := ⟨z 0, z 1, eq_ix2 z⟩
  have hn : n = ⟨i.val * 2000 + r.val, by omega⟩ := Fin.ext hz0
  have hc : c = ⟨k.val * 128 + d.val, by omega⟩ := Fin.ext hz1
  rw [product_apply, support_ix2, hn, hc, supportAt_band]
  unfold xw
  exact Finset.sum_congr rfl fun j _ => by rw [h0, h1]

/-! ## The windows' blocks -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the twenty grid points: the feature window sits at (slice, row block, 0), the weight
    window at (0, 0), the output window at (row block, slice); a slice is below 4 and a row block below 5. -/
theorem index_facts : ∀ t : Fin cfg0.N,
    win0_0.index t (0 : Fin 3) = win0_2.index t (1 : Fin 2)
    ∧ win0_0.index t (1 : Fin 3) = win0_2.index t (0 : Fin 2)
    ∧ win0_0.index t (2 : Fin 3) = 0
    ∧ win0_1.index t (0 : Fin 2) = 0 ∧ win0_1.index t (1 : Fin 2) = 0
    ∧ win0_2.index t (0 : Fin 2) < 5 ∧ win0_2.index t (1 : Fin 2) < 4 :=
  (by decide +kernel : ∀ t : Fin grid0.N, _)

/-- Every (row block, slice) pair is some point's output block. -/
theorem index_onto : ∀ (q0 : Fin 5) (q1 : Fin 4), ∃ t : Fin cfg0.N, win0_2.index t = ![q0.val, q1.val] :=
  (by decide +kernel : ∀ (q0 : Fin 5) (q1 : Fin 4), ∃ t : Fin grid0.N, win0_2.index t = ![q0.val, q1.val])

/-- The feature window's block at a point, read at (0, r, j): row 2000 i + r of slice k of the features. -/
theorem features_block (c : Dev nD) (t : Fin cfg0.N) (k : Fin 4) (i : Fin 5)
    (hk : win0_0.index t (0 : Fin 3) = k.val) (hi : win0_0.index t (1 : Fin 3) = i.val) (h2 : win0_0.index t (2 : Fin 3) = 0)
    (r : Fin 2000) (j : Fin 128) :
    iblk0 V c 0 t (ix3 (0 : Fin 1) r j) = (V c main_arg0 : SX.Idx → EReal) (ix3 k ⟨i.val * 2000 + r.val, by omega⟩ j) := by
  show V c main_arg0 (((cfg0.win 0).blk t).view.emb (ix3 (0 : Fin 1) r j)) = V c main_arg0 _
  refine congrArg (V c main_arg0) (funext fun a => Fin.ext ?_)
  match a with
  | ⟨0, _⟩ => show win0_0.index t (0 : Fin 3) * 1 + 1 * 0 = k.val; omega
  | ⟨1, _⟩ => show win0_0.index t (1 : Fin 3) * 2000 + 1 * r.val = i.val * 2000 + r.val; omega
  | ⟨2, _⟩ => show win0_0.index t (2 : Fin 3) * 128 + 1 * j.val = j.val; omega

/-- The weight window's block at a point is the weight. -/
theorem weight_block (c : Dev nD) (t : Fin cfg0.N)
    (h0 : win0_1.index t (0 : Fin 2) = 0) (h1 : win0_1.index t (1 : Fin 2) = 0) (j d : Fin 128) :
    iblk0 V c 1 t (ix2 j d) = (V c main_arg2 : SW.Idx → EReal) (ix2 j d) := by
  show V c main_arg2 (((cfg0.win 1).blk t).view.emb (ix2 j d)) = V c main_arg2 _
  refine congrArg (V c main_arg2) (funext fun a => Fin.ext ?_)
  match a with
  | ⟨0, _⟩ => show win0_1.index t (0 : Fin 2) * 128 + 1 * j.val = j.val; omega
  | ⟨1, _⟩ => show win0_1.index t (1 : Fin 2) * 128 + 1 * d.val = d.val; omega

/-! ## What a point writes back, and the array after the region -/

/-- What point `t` writes back is block `t` of the wide support of the features and the weight as the region finds them. -/
theorem flushed_support (c : Dev nD) (t : Fin cfg0.N) :
    (dat0 V c).flushed 2 t
      = ((cfg0.win 2).blk t).view.read (Elt Ideal) (support (V c main_arg0) (V c main_arg2)) := by
  show (cfg0.win 2).cut (grid0.coords t) ((dat0 V c).after 2 t) = _
  rw [after0_2]
  unfold out0_2
  rw [View.canon_unit_zero hz2]
  simp only [View.ld_unit_zero (S := S1x2000x128) hz3, View.ld_unit_zero (S := S128x128) hz2]
  obtain ⟨e0, e1, e2, e3, e4, e5, e6⟩ := index_facts t
  funext y
  show (k0_pay1 (F := Ideal) (iblk0 V c 0 t) (iblk0 V c 1 t) y : EReal)
    = support (V c main_arg0) (V c main_arg2) (((cfg0.win 2).blk t).view.emb y)
  refine product_is_support _ _ _ _ ⟨win0_2.index t (1 : Fin 2), e6⟩ ⟨win0_2.index t (0 : Fin 2), e5⟩
    (fun r j => features_block V c t _ _ e0 e1 e2 r j) (fun j d => weight_block V c t e3 e4 j d) y _ ?_ ?_
  · show win0_2.index t (0 : Fin 2) * 2000 + 1 * (y 0).val = win0_2.index t (0 : Fin 2) * 2000 + (y 0).val; omega
  · show win0_2.index t (1 : Fin 2) * 128 + 1 * (y 1).val = win0_2.index t (1 : Fin 2) * 128 + (y 1).val; omega

/-- An index of the wide array is in point `t`'s block iff each coordinate is in the block's range on its axis. -/
theorem mem_block (t : Fin cfg0.N) (i : S10000x512.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The twenty blocks cover the wide array: (n, c) lies in the block of row block n / 2000 and slice c / 128. -/
theorem covered (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := index_onto ⟨(i 0).val / 2000, by omega⟩ ⟨(i 1).val / 128, by omega⟩
  have q0 : win0_2.index t (0 : Fin 2) = (i 0).val / 2000 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the first region its output array is the wide support of the features and the weight it found. -/
theorem support_array (c : Dev nD) :
    (dat0 V c).arrAt 2 cfg0.N = support (V c main_arg0) (V c main_arg2) :=
  (dat0 V c).arrAt_eq_of_cover 2 (support (V c main_arg0) (V c main_arg2)) (fun t _ => flushed_support V c t) covered

end Cert.KernelIdeal.Support

end
-- ==== Proof.Region1.lean ====
/-
  The second region's output array: the adjacency contracted against the wide support, band by band, rectified.

  Grid point i of the second region reads rows 400 i … 400 i + 399 of the adjacency and the whole wide support,
  multiplies them into a 400 × 512 block, takes the maximum with zero, and stores the four column bands of 128 as the
  four slices of its 4 × 400 × 128 output block. So the block at (k, r, d) is
  max (Σ_m A[400 i + r, m] · S[m, 128 k + d]) 0: block i of `Cert.Gcn.spmm A S`. The twenty-five blocks tile the
  result, so after the region the result array IS `Cert.Gcn.spmm` of the adjacency and the support the region found.
-/
import proofs.«118438_g70677981823578_cont_9to1_m_879_4_alg».proof.Proof.Gen.KernelIdeal.Frame
import proofs.«118438_g70677981823578_cont_9to1_m_879_4_alg».proof.Proof.Spec
import proofs.«118438_g70677981823578_cont_9to1_m_879_4_alg».proof.Proof.LibMatmul2d
import Idealize.ShloMosaic.Lib.Pipeline.Value
import Idealize.ShloMosaic.Lib.ValueLayout

noncomputable section

namespace Cert.KernelIdeal.Spmm

open Cert.KernelIdeal Cert.KernelIdeal.Gen Cert.Gcn
open Idealize.ShloMosaic Idealize.ShloMosaic.TcCoe Idealize.SL.Sem Idealize.ShloMosaic.ValueIdx
open Idealize.ShloMosaic.Pipeline (Dat)
open scoped BigOperators

/-! ## The body's arithmetic at an index -/

/-- The rectified product of a 400 × 10000 block with the 10000 × 512 support, at (r, c). -/
theorem rectified_apply (x0 : FVec Ideal S400x10000 .f32) (x1 : FVec Ideal S10000x512 .bf16) (r : Fin 400) (c : Fin 512) :
    (k1_pay1 (F := Ideal) x0 x1 (ix2 r c) : EReal) = max (∑ m : Fin 10000, x0 (ix2 r m) * x1 (ix2 m c)) 0 := by
  unfold k1_pay1
  show max (FloatOps.matmul (DotDims.plain 400 10000 512) none (truncf .bf16 x0 bitsLt_bf16_f32)
      (shapeCast S10000x512 x1 shapeCasts_S10000x512_S10000x512) (constant S400x512 .f32 0x00000000#32) (ix2 r c))
    (Ideal.ofBits .f32 0x00000000#32) = _
  refine (congrArg₂ max (Cert.LibMatmul2d.matmul_plain_apply (M := 400) (K := 10000) (N := 512) (φ₁ := .bf16) (φ₂ := .bf16)
    (truncf .bf16 x0 bitsLt_bf16_f32) (shapeCast S10000x512 x1 shapeCasts_S10000x512_S10000x512) r c) Ideal.ofBits_zero_f32).trans ?_
  rw [shapeCast_self]
  rfl

/-- The band of 128 columns from column o on, as one slice of the output block, at (u, r, d). -/
theorem band_apply (o : Nat) (ho : o + 128 ≤ 512) (hs : S400x512.Slices ![0, o] S400x128)
    (x0 : FVec Ideal S400x10000 .f32) (x1 : FVec Ideal S10000x512 .bf16) (u : Fin 1) (r : Fin 400) (d : Fin 128) :
    (shapeCast S1x400x128 (extractStridedSlice S400x128 ![0, o] (k1_pay1 (F := Ideal) x0 x1) hs) shapeCasts_S400x128_S1x400x128
        (ix3 u r d) : EReal)
      = max (∑ m : Fin 10000, x0 (ix2 r m) * x1 (ix2 m ⟨o + d.val, by omega⟩)) 0 := by
  refine (shapeCast_ab_1ab_apply _ shapeCasts_S400x128_S1x400x128 u r d).trans ?_
  refine (slice2_axis1_apply o (k1_pay1 (F := Ideal) x0 x1) hs r d ⟨o + d.val, by omega⟩ rfl).trans ?_
  exact rectified_apply x0 x1 r _

/-- The four stored slices: slice k is the band from column 128 k on. -/
theorem slice0_apply (x0 : FVec Ideal S400x10000 .f32) (x1 : FVec Ideal S10000x512 .bf16) (u : Fin 1) (r : Fin 400) (d : Fin 128) :
    (k1_pay2 (F := Ideal) x0 x1 (ix3 u r d) : EReal) = max (∑ m : Fin 10000, x0 (ix2 r m) * x1 (ix2 m ⟨0 + d.val, by omega⟩)) 0 := by
  unfold k1_pay2; exact band_apply 0 (by omega) slices_S400x512_o0_0_S400x128 x0 x1 u r d
theorem slice1_apply (x0 : FVec Ideal S400x10000 .f32) (x1 : FVec Ideal S10000x512 .bf16) (u : Fin 1) (r : Fin 400) (d : Fin 128) :
    (k1_pay3 (F := Ideal) x0 x1 (ix3 u r d) : EReal) = max (∑ m : Fin 10000, x0 (ix2 r m) * x1 (ix2 m ⟨128 + d.val, by omega⟩)) 0 := by
  unfold k1_pay3; exact band_apply 128 (by omega) slices_S400x512_o0_128_S400x128 x0 x1 u r d
theorem slice2_apply (x0 : FVec Ideal S400x10000 .f32) (x1 : FVec Ideal S10000x512 .bf16) (u : Fin 1) (r : Fin 400) (d : Fin 128) :
    (k1_pay4 (F := Ideal) x0 x1 (ix3 u r d) : EReal) = max (∑ m : Fin 10000, x0 (ix2 r m) * x1 (ix2 m ⟨256 + d.val, by omega⟩)) 0 := by
  unfold k1_pay4; exact band_apply 256 (by omega) slices_S400x512_o0_256_S400x128 x0 x1 u r d
theorem slice3_apply (x0 : FVec Ideal S400x10000 .f32) (x1 : FVec Ideal S10000x512 .bf16) (u : Fin 1) (r : Fin 400) (d : Fin 128) :
    (k1_pay5 (F := Ideal) x0 x1 (ix3 u r d) : EReal) = max (∑ m : Fin 10000, x0 (ix2 r m) * x1 (ix2 m ⟨384 + d.val, by omega⟩)) 0 := by
  unfold k1_pay5; exact band_apply 384 (by omega) slices_S400x512_o0_384_S400x128 x0 x1 u r d

/-- A point's output block as one function of its two input blocks: at (k, r, d) the rectified product at
    (r, 128 k + d). -/
def blockOutAt (x0 : FVec Ideal S400x10000 .f32) (x1 : FVec Ideal S10000x512 .bf16) (k : Fin 4) (r : Fin 400) (d : Fin 128) : EReal :=
  max (∑ m : Fin 10000, x0 (ix2 r m) * x1 (ix2 m ⟨k.val * 128 + d.val, by omega⟩)) 0

def blockOut (x0 : FVec Ideal S400x10000 .f32) (x1 : FVec Ideal S10000x512 .bf16) : S4x400x128.Idx → EReal :=
  fun y => blockOutAt x0 x1 (y 0) (y 1) (y 2)

theorem blockOut_ix3 (x0 : FVec Ideal S400x10000 .f32) (x1 : FVec Ideal S10000x512 .bf16) (k : Fin 4) (r : Fin 400) (d : Fin 128) :
    blockOut x0 x1 (ix3 k r d) = blockOutAt x0 x1 k r d := rfl

/-- A stored slice whose entries are the band from column 128 k on is slice k of `blockOut`. -/
theorem slice_is_blockOut (x0 : FVec Ideal S400x10000 .f32) (x1 : FVec Ideal S10000x512 .bf16) (o : Nat) (k : Fin 4)
    (hk : k.val * 128 = o) (pay : FVec Ideal S1x400x128 .f32)
    (hpay : ∀ (u : Fin 1) (r : Fin 400) (d : Fin 128),
      pay (ix3 u r d) = max (∑ m : Fin 10000, x0 (ix2 r m) * x1 (ix2 m ⟨o + d.val, by omega⟩)) 0)
    (x : S1x400x128.Idx) (z : S4x400x128.Idx)
    (hz0 : (z 0).val = k.val + (x 0).val) (hz1 : (z 1).val = (x 1).val) (hz2 : (z 2).val = (x 2).val) :
    pay x = blockOut x0 x1 z := by
  obtain ⟨u, r, d, rfl⟩ : ∃ (u : Fin 1) (r : Fin 400) (d : Fin 128), x = ix3 u r d := ⟨x 0, x 1, x 2, eq_ix3 x⟩
  obtain ⟨k', r', d', rfl⟩ : ∃ (k' : Fin 4) (r' : Fin 400) (d' : Fin 128), z = ix3 k' r' d' := ⟨z 0, z 1, z 2, eq_ix3 z⟩
  have hu : u.val = 0 := by omega
  have e0 : k' = k := Fin.ext (by have : k'.val = k.val + u.val := hz0; omega)
  have e1 : r' = r := Fin.ext hz1
  have e2 : d' = d := Fin.ext hz2
  subst hk
  rw [hpay, blockOut_ix3, e0, e1, e2]
  rfl

theorem hz2 : (![0, 0] : Fin 2 → Nat) = fun _ => 0 := funext fun a => by fin_cases a <;> rfl

/-- What the body leaves in the output window's buffer — four slice stores — is `blockOut` of its input blocks. -/
theorem out_eq (x0 : FVec Ideal S400x10000 .f32) (x1 : FVec Ideal S10000x512 .bf16) :
    out1_2 (F := Ideal) x0 x1 = blockOut x0 x1 := by
  funext y
  unfold out1_2
  simp only [View.ld_unit_zero (S := S400x10000) hz2, View.ld_unit_zero (S := S10000x512) hz2]
  refine View.canon_apply_of_pieces (Val := Elt Ideal) (e := .f32) (blockOut x0 x1) _ ?_ y (cover1_2 _ _ _ _ y)
  intro p hp x
  simp only [List.mem_cons, List.not_mem_nil, or_false] at hp
  rcases hp with rfl | rfl | rfl | rfl
  · refine slice_is_blockOut x0 x1 384 3 rfl (k1_pay5 (F := Ideal) x0 x1) (fun u r d => slice3_apply x0 x1 u r d) x _ ?_ ?_ ?_
    · show 3 + 1 * (x 0).val = 3 + (x 0).val; omega
    · show 0 + 1 * (x 1).val = (x 1).val; omega
    · show 0 + 1 * (x 2).val = (x 2).val; omega
  · refine slice_is_blockOut x0 x1 256 2 rfl (k1_pay4 (F := Ideal) x0 x1) (fun u r d => slice2_apply x0 x1 u r d) x _ ?_ ?_ ?_
    · show 2 + 1 * (x 0).val = 2 + (x 0).val; omega
    · show 0 + 1 * (x 1).val = (x 1).val; omega
    · show 0 + 1 * (x 2).val = (x 2).val; omega
  · refine slice_is_blockOut x0 x1 128 1 rfl (k1_pay3 (F := Ideal) x0 x1) (fun u r d => slice1_apply x0 x1 u r d) x _ ?_ ?_ ?_
    · show 1 + 1 * (x 0).val = 1 + (x 0).val; omega
    · show 0 + 1 * (x 1).val = (x 1).val; omega
    · show 0 + 1 * (x 2).val = (x 2).val; omega
  · refine slice_is_blockOut x0 x1 0 0 rfl (k1_pay2 (F := Ideal) x0 x1) (fun u r d => slice0_apply x0 x1 u r d) x _ ?_ ?_ ?_
    · show 0 + 1 * (x 0).val = 0 + (x 0).val; omega
    · show 0 + 1 * (x 1).val = (x 1).val; omega
    · show 0 + 1 * (x 2).val = (x 2).val; omega

/-- A point's output block is its block of the contracted, rectified array: if the adjacency block holds rows
    400 i … and the support block holds the support, the block at (k, r, d) is the array at (k, 400 i + r, d). -/
theorem block_is_spmm (x0 : FVec Ideal S400x10000 .f32) (x1 : FVec Ideal S10000x512 .bf16)
    (A : SA.Idx → EReal) (S : SS.Idx → EReal) (i : Fin 25)
    (h0 : ∀ (r : Fin 400) (m : Fin 10000), x0 (ix2 r m) = A (ix2 ⟨i.val * 400 + r.val, by omega⟩ m))
    (h1 : ∀ (m : Fin 10000) (c : Fin 512), x1 (ix2 m c) = S (ix2 m c))
    (y : S4x400x128.Idx) (z : SX.Idx)
    (hz0 : (z 0).val = (y 0).val) (hz1 : (z 1).val = i.val * 400 + (y 1).val) (hz2 : (z 2).val = (y 2).val) :
    blockOut x0 x1 y = spmm A S z := by
  obtain ⟨k, r, d, rfl⟩ : ∃ (k : Fin 4) (r : Fin 400) (d : Fin 128), y = ix3 k r d := ⟨y 0, y 1, y 2, eq_ix3 y⟩
  obtain ⟨k', n, d', rfl⟩ : ∃ (k' : Fin 4) (n : Fin 10000) (d' : Fin 128), z = ix3 k' n d' := ⟨z 0, z 1, z 2, eq_ix3 z⟩
  have e0 : k' = k := Fin.ext hz0
  have e1 : n = ⟨i.val * 400 + r.val, by omega⟩ := Fin.ext hz1
  have e2 : d' = d := Fin.ext hz2
  rw [blockOut_ix3, spmm_ix3, e0, e1, e2]
  unfold blockOutAt spmmAt
  exact congrArg (fun s => max s 0) (Finset.sum_congr rfl fun m _ => by rw [h0, h1])

/-! ## The windows' blocks -/

variable (V : (c : Dev nD) → (b : Ref sig .tc) → Buf (Elt Ideal) ((c : Thread nD τ).loc b))

/-- The printed index maps over the twenty-five grid points: the adjacency window sits at (row block, 0), the support
    window at (0, 0), the output window at (0, row block, 0); a row block is below 25. -/
theorem index_facts : ∀ t : Fin cfg1.N,
    win1_0.index t (0 : Fin 2) = win1_2.index t (1 : Fin 3)
    ∧ win1_0.index t (1 : Fin 2) = 0
    ∧ win1_1.index t (0 : Fin 2) = 0 ∧ win1_1.index t (1 : Fin 2) = 0
    ∧ win1_2.index t (0 : Fin 3) = 0 ∧ win1_2.index t (2 : Fin 3) = 0
    ∧ win1_2.index t (1 : Fin 3) < 25 :=
  (by decide +kernel : ∀ t : Fin grid1.N, _)

/-- Every row block is some point's output block. -/
theorem index_onto : ∀ q : Fin 25, ∃ t : Fin cfg1.N, win1_2.index t = ![0, q.val, 0] :=
  (by decide +kernel : ∀ q : Fin 25, ∃ t : Fin grid1.N, win1_2.index t = ![0, q.val, 0])

/-- The adjacency window's block at a point, read at (r, m): row 400 i + r of the adjacency. -/
theorem adjacency_block (c : Dev nD) (t : Fin cfg1.N) (i : Fin 25)
    (hi : win1_0.index t (0 : Fin 2) = i.val) (h1 : win1_0.index t (1 : Fin 2) = 0) (r : Fin 400) (m : Fin 10000) :
    iblk1 V c 0 t (ix2 r m) = (V c main_arg1 : SA.Idx → EReal) (ix2 ⟨i.val * 400 + r.val, by omega⟩ m) := by
  show V c main_arg1 (((cfg1.win 0).blk t).view.emb (ix2 r m)) = V c main_arg1 _
  refine congrArg (V c main_arg1) (funext fun a => Fin.ext ?_)
  match a with
  | ⟨0, _⟩ => show win1_0.index t (0 : Fin 2) * 400 + 1 * r.val = i.val * 400 + r.val; omega
  | ⟨1, _⟩ => show win1_0.index t (1 : Fin 2) * 10000 + 1 * m.val = m.val; omega

/-- The support window's block at a point is the support array. -/
theorem support_block (c : Dev nD) (t : Fin cfg1.N)
    (h0 : win1_1.index t (0 : Fin 2) = 0) (h1 : win1_1.index t (1 : Fin 2) = 0) (m : Fin 10000) (k : Fin 512) :
    iblk1 V c 1 t (ix2 m k) = (V c main_v0 : SS.Idx → EReal) (ix2 m k) := by
  show V c main_v0 (((cfg1.win 1).blk t).view.emb (ix2 m k)) = V c main_v0 _
  refine congrArg (V c main_v0) (funext fun a => Fin.ext ?_)
  match a with
  | ⟨0, _⟩ => show win1_1.index t (0 : Fin 2) * 10000 + 1 * m.val = m.val; omega
  | ⟨1, _⟩ => show win1_1.index t (1 : Fin 2) * 512 + 1 * k.val = k.val; omega

/-! ## What a point writes back, and the array after the region -/

/-- What point `t` writes back is block `t` of the contracted, rectified array of the adjacency and the support as the
    region finds them. -/
theorem flushed_layer (c : Dev nD) (t : Fin cfg1.N) :
    (dat1 V c).flushed 2 t
      = ((cfg1.win 2).blk t).view.read (Elt Ideal) (spmm (V c main_arg1) (V c main_v0)) := by
  show (cfg1.win 2).cut (grid1.coords t) ((dat1 V c).after 2 t) = _
  rw [after1_2]
  obtain ⟨e0, e1, e2, e3, e4, e5, e6⟩ := index_facts t
  funext y
  show (out1_2 (F := Ideal) (iblk1 V c 0 t) (iblk1 V c 1 t) y : EReal)
    = spmm (V c main_arg1) (V c main_v0) (((cfg1.win 2).blk t).view.emb y)
  refine (congrFun (out_eq (iblk1 V c 0 t) (iblk1 V c 1 t)) y).trans ?_
  refine block_is_spmm _ _ _ _ ⟨win1_2.index t (1 : Fin 3), e6⟩
    (fun r m => adjacency_block V c t _ e0 e1 r m) (fun m k => support_block V c t e2 e3 m k) y _ ?_ ?_ ?_
  · show win1_2.index t (0 : Fin 3) * 4 + 1 * (y 0).val = (y 0).val; omega
  · show win1_2.index t (1 : Fin 3) * 400 + 1 * (y 1).val = win1_2.index t (1 : Fin 3) * 400 + (y 1).val; omega
  · show win1_2.index t (2 : Fin 3) * 128 + 1 * (y 2).val = (y 2).val; omega

/-- An index of the result is in point `t`'s block iff each coordinate is in the block's range on its axis. -/
theorem mem_block (t : Fin cfg1.N) (i : S4x10000x128.Idx) :
    i ∈ ((cfg1.win 2).blk t).view.set ↔ ∀ a : Fin 3, win1_2.index t a * S4x400x128.size a ≤ (i a).val
      ∧ (i a).val < win1_2.index t a * S4x400x128.size a + S4x400x128.size a := by
  show i ∈ ((View.whole main_v1).slice (win1_2.rect t)).set ↔ _
  rw [View.set_slice_whole, Rect.mem_set_unit]
  exact Iff.rfl

/-- The twenty-five blocks cover the result: (k, n, d) lies in the block of row block n / 400. -/
theorem covered (i : S4x10000x128.Idx) :
    ∃ t : Fin cfg1.N, (cfg1.win 2).flush t = true ∧ i ∈ ((cfg1.win 2).blk t).view.set := by
  have hi0 : (i 0).val < 4 := (i 0).isLt
  have hi1 : (i 1).val < 10000 := (i 1).isLt
  have hi2 : (i 2).val < 128 := (i 2).isLt
  obtain ⟨t, ht⟩ := index_onto ⟨(i 1).val / 400, by omega⟩
  have q0 : win1_2.index t (0 : Fin 3) = 0 := congrFun ht 0
  have q1 : win1_2.index t (1 : Fin 3) = (i 1).val / 400 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 4 ≤ (i 0).val ∧ (i 0).val < win1_2.index t (0 : Fin 3) * 4 + 4; omega
  | ⟨1, _⟩ => show win1_2.index t (1 : Fin 3) * 400 ≤ (i 1).val ∧ (i 1).val < win1_2.index t (1 : Fin 3) * 400 + 400; omega
  | ⟨2, _⟩ => show win1_2.index t (2 : Fin 3) * 128 ≤ (i 2).val ∧ (i 2).val < win1_2.index t (2 : Fin 3) * 128 + 128; omega

/-- After the second region its output array is the contracted, rectified array of the adjacency and the support it found. -/
theorem layer_array (c : Dev nD) :
    (dat1 V c).arrAt 2 cfg1.N = spmm (V c main_arg1) (V c main_v0) :=
  (dat1 V c).arrAt_eq_of_cover 2 (spmm (V c main_arg1) (V c main_v0)) (fun t _ => flushed_layer V c t) covered

end Cert.KernelIdeal.Spmm

end
-- ==== Proof.KernelValue.lean ====
/-
  The idealized kernel's result is the layer.

  The second region's final output array is the adjacency contracted against the support it finds, band by band,
  rectified; the adjacency it finds is the launched one, and the support it finds is the first region's final output
  array, which is the wide support of the launched features and weight. Contracting against the wide support and cutting
  the bands apart is the layer (`Cert.Gcn.spmm_support`).
-/
import proofs.«118438_g70677981823578_cont_9to1_m_879_4_alg».proof.Proof.KernelRun
import proofs.«118438_g70677981823578_cont_9to1_m_879_4_alg».proof.Proof.Region0
import proofs.«118438_g70677981823578_cont_9to1_m_879_4_alg».proof.Proof.Region1
import proofs.«118438_g70677981823578_cont_9to1_m_879_4_alg».proof.Proof.Spec

noncomputable section

namespace Cert.KernelIdeal.Hand

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-- The result array after the run is the layer of the three arguments as launched. -/
theorem result_array (c : Dev nD) :
    (dat1 (V1 m ρ) c).arrAt 2 cfg1.N
      = gcn (m ((c.tc : Thread nD τ).loc main_arg0)) (m ((c.tc : Thread nD τ).loc main_arg1)) (m ((c.tc : Thread nD τ).loc main_arg2)) := by
  rw [Cert.KernelIdeal.Spmm.layer_array (V1 m ρ) c, V1_arg1, V1_support, Cert.KernelIdeal.Support.support_array (V0 m ρ) c,
    V0_arg0, V0_arg2]
  exact spmm_support _ _ _

/-- Every weakly fair execution of the idealized kernel terminates without a fault, the result at the layer of the
    arguments and the arguments as launched. -/
theorem run_gcn : θ_run defs (onTc (τ := τ) (main (F := Ideal))) ⟨m, fun _ => 0, ρ⟩ (fun r => ∀ c : Dev nD,
      r.2.mem ((c.tc : Thread nD τ).loc main_v1)
        = gcn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_array m ρ c), (h c).2⟩) (run_result (F := Ideal) m ρ)

end Cert.KernelIdeal.Hand

end
-- ==== Proof.RefRun.lean ====
/-
  The reference's run, in two stages.

  The reference computes the support slice by slice (four products x[k] · W), stacks the four, then for each slice
  again cuts it out of the stack, multiplies the adjacency with it, stacks the four results and rectifies. The stack of
  supports is read four times. The run is therefore stated in two stages with the stack named once: the first
  seventeen operations leave `supportStack x W` in the stack's buffer and do not touch the adjacency; the other
  twenty, from any contents `y` of that buffer and `a` of the adjacency's, leave `layer a y` in the result's.
  Every weakly fair execution terminates with the result at `layer a (supportStack x W)` of the launch contents and
  the three arguments as launched.
-/
import proofs.«118438_g70677981823578_cont_9to1_m_879_4_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of arrays -/

/-- Slice k of a stack of four matrices, as a matrix. -/
def slab0 (y : (⟨S4x10000x128, .f32⟩ : BufTy).Contents (Elt F)) : (⟨S10000x128, .f32⟩ : BufTy).Contents (Elt F) :=
  shapeCast _ (extractStridedSlice S1x10000x128 ![0, 0, 0] y slices_S4x10000x128_S1x10000x128_0_0_0) shapeCasts_S1x10000x128_S10000x128
def slab1 (y : (⟨S4x10000x128, .f32⟩ : BufTy).Contents (Elt F)) : (⟨S10000x128, .f32⟩ : BufTy).Contents (Elt F) :=
  shapeCast _ (extractStridedSlice S1x10000x128 ![1, 0, 0] y slices_S4x10000x128_S1x10000x128_1_0_0) shapeCasts_S1x10000x128_S10000x128
def slab2 (y : (⟨S4x10000x128, .f32⟩ : BufTy).Contents (Elt F)) : (⟨S10000x128, .f32⟩ : BufTy).Contents (Elt F) :=
  shapeCast _ (extractStridedSlice S1x10000x128 ![2, 0, 0] y slices_S4x10000x128_S1x10000x128_2_0_0) shapeCasts_S1x10000x128_S10000x128
def slab3 (y : (⟨S4x10000x128, .f32⟩ : BufTy).Contents (Elt F)) : (⟨S10000x128, .f32⟩ : BufTy).Contents (Elt F) :=
  shapeCast _ (extractStridedSlice S1x10000x128 ![3, 0, 0] y slices_S4x10000x128_S1x10000x128_3_0_0) shapeCasts_S1x10000x128_S10000x128

/-- A matrix as a stack of one. -/
def lift (z : (⟨S10000x128, .f32⟩ : BufTy).Contents (Elt F)) : (⟨S1x10000x128, .f32⟩ : BufTy).Contents (Elt F) :=
  broadcastInDim S1x10000x128 ![1, 2] bcast_S10000x128_S1x10000x128_1_2 z

/-- Four matrices stacked. -/
def stack (z0 z1 z2 z3 : (⟨S10000x128, .f32⟩ : BufTy).Contents (Elt F)) : (⟨S4x10000x128, .f32⟩ : BufTy).Contents (Elt F) :=
  concatenate S4x10000x128 0 [⟨S1x10000x128, lift z0⟩, ⟨S1x10000x128, lift z1⟩, ⟨S1x10000x128, lift z2⟩, ⟨S1x10000x128, lift z3⟩]
    concatenates_S1x10000x128_S1x10000x128_S1x10000x128_S1x10000x128_S4x10000x128_d0

/-- A feature matrix times the weight; the adjacency times a support matrix. -/
def timesW (l : (⟨S10000x128, .f32⟩ : BufTy).Contents (Elt F)) (w : (⟨S128x128, .f32⟩ : BufTy).Contents (Elt F)) :
    (⟨S10000x128, .f32⟩ : BufTy).Contents (Elt F) :=
  Host.dotGeneral dot_S10000x128_S128x128_S10000x128_1_0_0_1_n_n none l w
def adjTimes (a : (⟨S10000x10000, .f32⟩ : BufTy).Contents (Elt F)) (s : (⟨S10000x128, .f32⟩ : BufTy).Contents (Elt F)) :
    (⟨S10000x128, .f32⟩ : BufTy).Contents (Elt F) :=
  Host.dotGeneral dot_S10000x10000_S10000x128_S10000x128_1_0_0_1_n_n none a s

/-- The first stage: the four supports, stacked. -/
def supportStack (x : (⟨S4x10000x128, .f32⟩ : BufTy).Contents (Elt F)) (w : (⟨S128x128, .f32⟩ : BufTy).Contents (Elt F)) :
    (⟨S4x10000x128, .f32⟩ : BufTy).Contents (Elt F) :=
  stack (timesW (slab0 x) w) (timesW (slab1 x) w) (timesW (slab2 x) w) (timesW (slab3 x) w)

/-- The second stage: the adjacency times each slice of a stack, stacked again, rectified. -/
def layer (a : (⟨S10000x10000, .f32⟩ : BufTy).Contents (Elt F)) (y : (⟨S4x10000x128, .f32⟩ : BufTy).Contents (Elt F)) :
    (⟨S4x10000x128, .f32⟩ : BufTy).Contents (Elt F) :=
  maximumf (stack (adjTimes a (slab0 y)) (adjTimes a (slab1 y)) (adjTimes a (slab2 y)) (adjTimes a (slab3 y)))
    (broadcastInDim S4x10000x128 ![] bcast_S_S4x10000x128 (constant S_ .f32 0x00000000#32))

/-! ## The program as two lists of operations -/

/-- The first seventeen operations of @main: up to the stack of supports. -/
abbrev opsA : List (HloOp τ sig (Elt F)) :=
  [ unary main_arg0 main_v0 ((extractStridedSlice S1x10000x128 ![0, 0, 0] · slices_S4x10000x128_S1x10000x128_0_0_0) : (⟨S4x10000x128, .f32⟩ : BufTy).Contents (Elt F) → (⟨S1x10000x128, .f32⟩ : BufTy).Contents (Elt F)),
    reshape main_v0 main_v1 rfl shapeCasts_S1x10000x128_S10000x128,
    unary main_arg0 main_v2 ((extractStridedSlice S1x10000x128 ![1, 0, 0] · slices_S4x10000x128_S1x10000x128_1_0_0) : (⟨S4x10000x128, .f32⟩ : BufTy).Contents (Elt F) → (⟨S1x10000x128, .f32⟩ : BufTy).Contents (Elt F)),
    reshape main_v2 main_v3 rfl shapeCasts_S1x10000x128_S10000x128,
    unary main_arg0 main_v4 ((extractStridedSlice S1x10000x128 ![2, 0, 0] · slices_S4x10000x128_S1x10000x128_2_0_0) : (⟨S4x10000x128, .f32⟩ : BufTy).Contents (Elt F) → (⟨S1x10000x128, .f32⟩ : BufTy).Contents (Elt F)),
    reshape main_v4 main_v5 rfl shapeCasts_S1x10000x128_S10000x128,
    unary main_arg0 main_v6 ((extractStridedSlice S1x10000x128 ![3, 0, 0] · slices_S4x10000x128_S1x10000x128_3_0_0) : (⟨S4x10000x128, .f32⟩ : BufTy).Contents (Elt F) → (⟨S1x10000x128, .f32⟩ : BufTy).Contents (Elt F)),
    reshape main_v6 main_v7 rfl shapeCasts_S1x10000x128_S10000x128,
    binary main_v1 main_arg2 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v3 main_arg2 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v5 main_arg2 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v7 main_arg2 main_v11 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_v8 main_v12 (broadcastInDim S1x10000x128 ![1, 2] bcast_S10000x128_S1x10000x128_1_2 : (⟨S10000x128, .f32⟩ : BufTy).Contents (Elt F) → (⟨S1x10000x128, .f32⟩ : BufTy).Contents (Elt F)),
    unary main_v9 main_v13 (broadcastInDim S1x10000x128 ![1, 2] bcast_S10000x128_S1x10000x128_1_2 : (⟨S10000x128, .f32⟩ : BufTy).Contents (Elt F) → (⟨S1x10000x128, .f32⟩ : BufTy).Contents (Elt F)),
    unary main_v10 main_v14 (broadcastInDim S1x10000x128 ![1, 2] bcast_S10000x128_S1x10000x128_1_2 : (⟨S10000x128, .f32⟩ : BufTy).Contents (Elt F) → (⟨S1x10000x128, .f32⟩ : BufTy).Contents (Elt F)),
    unary main_v11 main_v15 (broadcastInDim S1x10000x128 ![1, 2] bcast_S10000x128_S1x10000x128_1_2 : (⟨S10000x128, .f32⟩ : BufTy).Contents (Elt F) → (⟨S1x10000x128, .f32⟩ : BufTy).Contents (Elt F)),
    nary ![main_v12, main_v13, main_v14, main_v15] main_v16 (fun u => concatenate S4x10000x128 0 [⟨S1x10000x128, u 0⟩, ⟨S1x10000x128, u 1⟩, ⟨S1x10000x128, u 2⟩, ⟨S1x10000x128, u 3⟩] concatenates_S1x10000x128_S1x10000x128_S1x10000x128_S1x10000x128_S4x10000x128_d0) ]

/-- The other twenty: from the stack of supports to the result (the rectifier's three operations in its call's place). -/
abbrev opsB : List (HloOp τ sig (Elt F)) :=
  [ unary main_v16 main_v17 ((extractStridedSlice S1x10000x128 ![0, 0, 0] · slices_S4x10000x128_S1x10000x128_0_0_0) : (⟨S4x10000x128, .f32⟩ : BufTy).Contents (Elt F) → (⟨S1x10000x128, .f32⟩ : BufTy).Contents (Elt F)),
    reshape main_v17 main_v18 rfl shapeCasts_S1x10000x128_S10000x128,
    unary main_v16 main_v19 ((extractStridedSlice S1x10000x128 ![1, 0, 0] · slices_S4x10000x128_S1x10000x128_1_0_0) : (⟨S4x10000x128, .f32⟩ : BufTy).Contents (Elt F) → (⟨S1x10000x128, .f32⟩ : BufTy).Contents (Elt F)),
    reshape main_v19 main_v20 rfl shapeCasts_S1x10000x128_S10000x128,
    unary main_v16 main_v21 ((extractStridedSlice S1x10000x128 ![2, 0, 0] · slices_S4x10000x128_S1x10000x128_2_0_0) : (⟨S4x10000x128, .f32⟩ : BufTy).Contents (Elt F) → (⟨S1x10000x128, .f32⟩ : BufTy).Contents (Elt F)),
    reshape main_v21 main_v22 rfl shapeCasts_S1x10000x128_S10000x128,
    unary main_v16 main_v23 ((extractStridedSlice S1x10000x128 ![3, 0, 0] · slices_S4x10000x128_S1x10000x128_3_0_0) : (⟨S4x10000x128, .f32⟩ : BufTy).Contents (Elt F) → (⟨S1x10000x128, .f32⟩ : BufTy).Contents (Elt F)),
    reshape main_v23 main_v24 rfl shapeCasts_S1x10000x128_S10000x128,
    binary main_arg1 main_v18 main_v25 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v20 main_v26 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v22 main_v27 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg1 main_v24 main_v28 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_v25 main_v29 (broadcastInDim S1x10000x128 ![1, 2] bcast_S10000x128_S1x10000x128_1_2 : (⟨S10000x128, .f32⟩ : BufTy).Contents (Elt F) → (⟨S1x10000x128, .f32⟩ : BufTy).Contents (Elt F)),
    unary main_v26 main_v30 (broadcastInDim S1x10000x128 ![1, 2] bcast_S10000x128_S1x10000x128_1_2 : (⟨S10000x128, .f32⟩ : BufTy).Contents (Elt F) → (⟨S1x10000x128, .f32⟩ : BufTy).Contents (Elt F)),
    unary main_v27 main_v31 (broadcastInDim S1x10000x128 ![1, 2] bcast_S10000x128_S1x10000x128_1_2 : (⟨S10000x128, .f32⟩ : BufTy).Contents (Elt F) → (⟨S1x10000x128, .f32⟩ : BufTy).Contents (Elt F)),
    unary main_v28 main_v32 (broadcastInDim S1x10000x128 ![1, 2] bcast_S10000x128_S1x10000x128_1_2 : (⟨S10000x128, .f32⟩ : BufTy).Contents (Elt F) → (⟨S1x10000x128, .f32⟩ : BufTy).Contents (Elt F)),
    nary ![main_v29, main_v30, main_v31, main_v32] main_v33 (fun u => concatenate S4x10000x128 0 [⟨S1x10000x128, u 0⟩, ⟨S1x10000x128, u 1⟩, ⟨S1x10000x128, u 2⟩, ⟨S1x10000x128, u 3⟩] concatenates_S1x10000x128_S1x10000x128_S1x10000x128_S1x10000x128_S4x10000x128_d0),
    TRef.nullary (TRef.of (T := ⟨S_, .f32⟩) main_call0_cst) (constant S_ .f32 0x00000000#32),
    TRef.unary (TRef.of (T := ⟨S_, .f32⟩) main_call0_cst) (TRef.of (T := ⟨S4x10000x128, .f32⟩) main_call0_v0) (broadcastInDim S4x10000x128 ![] bcast_S_S4x10000x128),
    TRef.binary (TRef.of (T := ⟨S4x10000x128, .f32⟩) main_v33) (TRef.of (T := ⟨S4x10000x128, .f32⟩) main_call0_v0) (TRef.of (T := ⟨S4x10000x128, .f32⟩) main_v34) maximumf ]

theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., unary_bufs_sub .., unary_bufs_sub .., unary_bufs_sub .., unary_bufs_sub .., nary_bufs_sub ..⟩
theorem opsB_sub : (opsB : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., unary_bufs_sub .., unary_bufs_sub .., unary_bufs_sub .., unary_bufs_sub .., nary_bufs_sub .., nullary_bufs_sub .., unary_bufs_sub .., binary_bufs_sub ..⟩
theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h

/-- Two lines of operations run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stage leaves -/

/-- The first stage leaves the stacked supports of the features and the weight it started from, -/
theorem stageA_stack (V : Valuation τ sig (Elt F)) :
    after opsA V (Proc.devRef .tc main_v16) = supportStack (V (Proc.devRef .tc main_arg0)) (V (Proc.devRef .tc main_arg2)) := by
  after_results_simp <;> rfl
/-- and the three arguments as they were. -/
theorem stageA_arg0 (V : Valuation τ sig (Elt F)) : after opsA V (Proc.devRef .tc main_arg0) = V (Proc.devRef .tc main_arg0) := by
  after_results_simp <;> rfl
theorem stageA_arg1 (V : Valuation τ sig (Elt F)) : after opsA V (Proc.devRef .tc main_arg1) = V (Proc.devRef .tc main_arg1) := by
  after_results_simp <;> rfl
theorem stageA_arg2 (V : Valuation τ sig (Elt F)) : after opsA V (Proc.devRef .tc main_arg2) = V (Proc.devRef .tc main_arg2) := by
  after_results_simp <;> rfl

/-- The second stage leaves the layer of the adjacency and the stack it started from, -/
theorem stageB_result (V : Valuation τ sig (Elt F)) :
    after opsB V (Proc.devRef .tc main_v34) = layer (V (Proc.devRef .tc main_arg1)) (V (Proc.devRef .tc main_v16)) := by
  after_results_simp <;> rfl
/-- and the three arguments as they were. -/
theorem stageB_arg0 (V : Valuation τ sig (Elt F)) : after opsB V (Proc.devRef .tc main_arg0) = V (Proc.devRef .tc main_arg0) := by
  after_results_simp <;> rfl
theorem stageB_arg1 (V : Valuation τ sig (Elt F)) : after opsB V (Proc.devRef .tc main_arg1) = V (Proc.devRef .tc main_arg1) := by
  after_results_simp <;> rfl
theorem stageB_arg2 (V : Valuation τ sig (Elt F)) : after opsB V (Proc.devRef .tc main_arg2) = V (Proc.devRef .tc main_arg2) := by
  after_results_simp <;> rfl

/-! ## The run -/

/-- On every device, from any memory with zero counters: every weakly fair execution of @main terminates with the
    result at the layer of the adjacency and the stacked supports of the features and the weight, all as launched,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = layer (m ((c.tc : Thread nD τ).loc main_arg1))
            (supportStack (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v34).trans (by rw [after_append, stageB_result, stageA_arg1, stageA_stack]),
       (h c main_arg0).trans (by rw [after_append, stageB_arg0, stageA_arg0]),
       (h c main_arg1).trans (by rw [after_append, stageB_arg1, stageA_arg1]),
       (h c main_arg2).trans (by rw [after_append, stageB_arg2, stageA_arg2])⟩)
    (run_seq scopedRefs_eq scopedSems_eq defs main (fun _ => opsA ++ opsB) main_eq (fun _ => ops_sub) m ρ
      (fun _ op h => (List.mem_append.mp h).elim (opsA_fresh op) (opsB_fresh op)))

end Cert.ReferenceIdeal.Hand

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«118438_g70677981823578_cont_9to1_m_879_4_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.RefValue.lean ====
/-
  The reference's two stages are the layer.

  At the exact instance each stage is read at an index: a slab of a stack is the stack at that slab's coordinate, a
  matrix laid out as a stack of one is the matrix, four stacks of one joined are read piece by piece, and the host's
  matrix product is the sum over the contraction index. So the stacked supports at (k, n, d) are Σ_j x[k, n, j] · W[j, d],
  and the second stage of any stack y at (k, n, d) is max (Σ_m A[n, m] · y[k, m, d]) 0: together the layer.
-/
import proofs.«118438_g70677981823578_cont_9to1_m_879_4_alg».proof.Proof.RefRun
import proofs.«118438_g70677981823578_cont_9to1_m_879_4_alg».proof.Proof.Spec
import proofs.«118438_g70677981823578_cont_9to1_m_879_4_alg».proof.Proof.LibHostStack

noncomputable section

namespace Cert.ReferenceIdeal.Hand

open Cert.ReferenceIdeal Cert.ReferenceIdeal.Gen Cert.Gcn Cert.LibHostStack
open Idealize.ShloMosaic Idealize.ShloMosaic.ValueIdx
open scoped BigOperators

/-! ## The pieces at an index -/

theorem slab0_apply (y : SX.Idx → EReal) (n : Fin 10000) (d : Fin 128) : slab0 (F := Ideal) y (ix2 n d) = y (ix3 (0 : Fin 4) n d) :=
  slab_apply 0 y slices_S4x10000x128_S1x10000x128_0_0_0 shapeCasts_S1x10000x128_S10000x128 0 rfl n d
theorem slab1_apply (y : SX.Idx → EReal) (n : Fin 10000) (d : Fin 128) : slab1 (F := Ideal) y (ix2 n d) = y (ix3 (1 : Fin 4) n d) :=
  slab_apply 1 y slices_S4x10000x128_S1x10000x128_1_0_0 shapeCasts_S1x10000x128_S10000x128 1 rfl n d
theorem slab2_apply (y : SX.Idx → EReal) (n : Fin 10000) (d : Fin 128) : slab2 (F := Ideal) y (ix2 n d) = y (ix3 (2 : Fin 4) n d) :=
  slab_apply 2 y slices_S4x10000x128_S1x10000x128_2_0_0 shapeCasts_S1x10000x128_S10000x128 2 rfl n d
theorem slab3_apply (y : SX.Idx → EReal) (n : Fin 10000) (d : Fin 128) : slab3 (F := Ideal) y (ix2 n d) = y (ix3 (3 : Fin 4) n d) :=
  slab_apply 3 y slices_S4x10000x128_S1x10000x128_3_0_0 shapeCasts_S1x10000x128_S10000x128 3 rfl n d

/-- Four matrices stacked, at (k, n, d): matrix k at (n, d). -/
theorem stack_apply (z0 z1 z2 z3 : (⟨2, ![10000, 128]⟩ : Shape).Idx → EReal) (k : Fin 4) (n : Fin 10000) (d : Fin 128) :
    stack (F := Ideal) z0 z1 z2 z3 (ix3 k n d) = (![z0, z1, z2, z3] k) (ix2 n d) := by
  unfold stack
  refine (stack4_apply (lift (F := Ideal) z0) (lift (F := Ideal) z1) (lift (F := Ideal) z2) (lift (F := Ideal) z3)
    concatenates_S1x10000x128_S1x10000x128_S1x10000x128_S1x10000x128_S4x10000x128_d0 k n d).trans ?_
  match k with
  | ⟨0, _⟩ => exact lift_apply z0 bcast_S10000x128_S1x10000x128_1_2 0 n d
  | ⟨1, _⟩ => exact lift_apply z1 bcast_S10000x128_S1x10000x128_1_2 0 n d
  | ⟨2, _⟩ => exact lift_apply z2 bcast_S10000x128_S1x10000x128_1_2 0 n d
  | ⟨3, _⟩ => exact lift_apply z3 bcast_S10000x128_S1x10000x128_1_2 0 n d

/-- A feature matrix times the weight, at (n, d). -/
theorem timesW_apply (l : (⟨2, ![10000, 128]⟩ : Shape).Idx → EReal) (w : SW.Idx → EReal) (n : Fin 10000) (d : Fin 128) :
    timesW (F := Ideal) l w (ix2 n d) = ∑ j : Fin 128, l (ix2 n j) * w (ix2 j d) :=
  dotGeneral_plain_apply (M := 10000) (K := 128) (N := 128) (φ₁ := .f32) (φ₂ := .f32) l w n d

/-- The adjacency times a support matrix, at (n, d). -/
theorem adjTimes_apply (a : SA.Idx → EReal) (s : (⟨2, ![10000, 128]⟩ : Shape).Idx → EReal) (n : Fin 10000) (d : Fin 128) :
    adjTimes (F := Ideal) a s (ix2 n d) = ∑ m : Fin 10000, a (ix2 n m) * s (ix2 m d) :=
  dotGeneral_plain_apply (M := 10000) (K := 10000) (N := 128) (φ₁ := .f32) (φ₂ := .f32) a s n d

/-! ## The two stages at an index -/

/-- The stacked supports at (k, n, d): entry (n, d) of x[k] · W. -/
theorem supportStack_apply (x : SX.Idx → EReal) (w : SW.Idx → EReal) (k : Fin 4) (n : Fin 10000) (d : Fin 128) :
    supportStack (F := Ideal) x w (ix3 k n d) = xw x w k n d := by
  unfold supportStack
  rw [stack_apply]
  unfold xw
  match k with
  | ⟨0, _⟩ =>
    refine (timesW_apply (slab0 (F := Ideal) x) w n d).trans (Finset.sum_congr rfl fun j _ => ?_)
    rw [slab0_apply]; rfl
  | ⟨1, _⟩ =>
    refine (timesW_apply (slab1 (F := Ideal) x) w n d).trans (Finset.sum_congr rfl fun j _ => ?_)
    rw [slab1_apply]; rfl
  | ⟨2, _⟩ =>
    refine (timesW_apply (slab2 (F := Ideal) x) w n d).trans (Finset.sum_congr rfl fun j _ => ?_)
    rw [slab2_apply]; rfl
  | ⟨3, _⟩ =>
    refine (timesW_apply (slab3 (F := Ideal) x) w n d).trans (Finset.sum_congr rfl fun j _ => ?_)
    rw [slab3_apply]; rfl

/-- The second stage of a stack y at (k, n, d): max (Σ_m A[n, m] · y[k, m, d]) 0. -/
theorem layer_apply (a : SA.Idx → EReal) (y : SX.Idx → EReal) (k : Fin 4) (n : Fin 10000) (d : Fin 128) :
    layer (F := Ideal) a y (ix3 k n d) = max (∑ m : Fin 10000, a (ix2 n m) * y (ix3 k m d)) 0 := by
  unfold layer
  show max (stack (F := Ideal) _ _ _ _ (ix3 k n d)) (Ideal.ofBits .f32 0x00000000#32) = _
  rw [stack_apply, Ideal.ofBits_zero_f32]
  refine congrArg (fun s => max s 0) ?_
  match k with
  | ⟨0, _⟩ =>
    refine (adjTimes_apply a (slab0 (F := Ideal) y) n d).trans (Finset.sum_congr rfl fun m _ => ?_)
    rw [slab0_apply]; rfl
  | ⟨1, _⟩ =>
    refine (adjTimes_apply a (slab1 (F := Ideal) y) n d).trans (Finset.sum_congr rfl fun m _ => ?_)
    rw [slab1_apply]; rfl
  | ⟨2, _⟩ =>
    refine (adjTimes_apply a (slab2 (F := Ideal) y) n d).trans (Finset.sum_congr rfl fun m _ => ?_)
    rw [slab2_apply]; rfl
  | ⟨3, _⟩ =>
    refine (adjTimes_apply a (slab3 (F := Ideal) y) n d).trans (Finset.sum_congr rfl fun m _ => ?_)
    rw [slab3_apply]; rfl

/-- The reference's result is the layer of its three arguments. -/
theorem layer_supportStack (x : SX.Idx → EReal) (a : SA.Idx → EReal) (w : SW.Idx → EReal) :
    layer (F := Ideal) a (supportStack (F := Ideal) x w) = gcn x a w := by
  funext i
  obtain ⟨k, n, d, rfl⟩ : ∃ (k : Fin 4) (n : Fin 10000) (d : Fin 128), i = ix3 k n d := ⟨i 0, i 1, i 2, eq_ix3 i⟩
  rw [layer_apply, gcn_ix3]
  unfold gcnAt
  exact congrArg (fun s => max s 0) (Finset.sum_congr rfl fun m _ => by rw [supportStack_apply])

end Cert.ReferenceIdeal.Hand

end
-- ==== Proof.lean ====
/-
  A graph-convolution layer: four feature slices x[k] (10000 × 128), a dense 10000 × 10000 adjacency A, a 128 × 128
  weight W, and out[k] = max (A · (x[k] · W)) 0.

  The kernel is two regions. The first forms the support x[k] · W for all four slices and lays them side by side in
  one 10000 × 512 array (slice k in columns 128 k … 128 k + 127), rounded to sixteen bits; the second contracts the
  adjacency (rounded likewise) against that wide array in one product, takes the maximum with zero, and cuts the four
  column bands back apart into the four result slices. The reference forms each support, stacks them, and contracts
  the adjacency against each slice separately. On the extended reals a change of float format is the identity and a
  matrix product is the exact sum over the contraction index, so both programs compute, at (k, n, d),

      max (Σ_m A[n, m] · (Σ_j x[k, m, j] · W[j, d])) 0,

  the same products added in the same grouping: no law of arithmetic and no finiteness of the inputs is used, only that
  column 128 k + d of the wide layout is entry d of slice k (Proof/Spec.lean).

  Kernel side: Proof/Region0.lean and Proof/Region1.lean read each region's output array (what each grid point writes
  back is a block of one whole-array function, and the blocks tile the array); Proof/KernelRun.lean runs the two
  regions in a row with the result buffer named; Proof/KernelValue.lean composes them. Reference side:
  Proof/RefRun.lean runs the host program in two stages with the stacked supports named once, and Proof/RefValue.lean
  reads the stages at an index. The idealization rewrote nothing, so the kernel's sanctioned idealization is its own text.
-/
import proofs.«118438_g70677981823578_cont_9to1_m_879_4_alg».proof.Defs
import proofs.«118438_g70677981823578_cont_9to1_m_879_4_alg».proof.Proof.Gen.Kernel
import proofs.«118438_g70677981823578_cont_9to1_m_879_4_alg».proof.Proof.Gen.Kernel.Skeleton
import proofs.«118438_g70677981823578_cont_9to1_m_879_4_alg».proof.Proof.Gen.Kernel.Launch
import proofs.«118438_g70677981823578_cont_9to1_m_879_4_alg».proof.Proof.Gen.Kernel.Points
import proofs.«118438_g70677981823578_cont_9to1_m_879_4_alg».proof.Proof.Gen.Kernel.Frame
import proofs.«118438_g70677981823578_cont_9to1_m_879_4_alg».proof.Proof.Gen.KernelIdeal
import proofs.«118438_g70677981823578_cont_9to1_m_879_4_alg».proof.Proof.Gen.KernelIdeal.Skeleton
import proofs.«118438_g70677981823578_cont_9to1_m_879_4_alg».proof.Proof.Gen.KernelIdeal.Launch
import proofs.«118438_g70677981823578_cont_9to1_m_879_4_alg».proof.Proof.Gen.KernelIdeal.Points
import proofs.«118438_g70677981823578_cont_9to1_m_879_4_alg».proof.Proof.Gen.KernelIdeal.Frame
import proofs.«118438_g70677981823578_cont_9to1_m_879_4_alg».proof.Proof.Gen.ReferenceIdeal
import proofs.«118438_g70677981823578_cont_9to1_m_879_4_alg».proof.Proof.Gen.Pre_finite_inputs
import proofs.«118438_g70677981823578_cont_9to1_m_879_4_alg».proof.Proof.KernelValue
import proofs.«118438_g70677981823578_cont_9to1_m_879_4_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the arguments both idealized programs end with the layer of the arguments in their result. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_gcn m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.layer_supportStack _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
